-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096 : Shape := ⟨1, ![4096]⟩
abbrev S5532x256 : Shape := ⟨2, ![5532, 256]⟩
abbrev S5000x256 : Shape := ⟨2, ![5000, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S5532x256 : S_.BroadcastsInDim S5532x256 (![] : Fin 0 → Fin S5532x256.rank)
  reducesTo_S5532x256_S_d0_1 : S5532x256.ReducesTo [0, 1] S_
  bcast_S_S5000x256 : S_.BroadcastsInDim S5000x256 (![] : Fin 0 → Fin S5000x256.rank)
  reducesTo_S5000x256_S_d0_1 : S5000x256.ReducesTo [0, 1] S_

variable [Facts]

def fn {F : FTy → Type} [FloatOps F] (main_arg0 : FVec F S4096x256 .f32) (main_arg1 : IVec S4096 32) (main_arg2 : IVec S4096 1) (main_arg3 : FVec F S5532x256 .f32) (main_arg4 : FVec F S5000x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S5532x256 .f32 := Host.absf main_arg3
  let main_cst_0 : FVec F S_ .f32 := constant S_ .f32 0x7F800000#32
  let main_v5 : FVec F S5532x256 .f32 := broadcastInDim S5532x256 ![] bcast_S_S5532x256 main_cst_0
  let main_v6 : IVec S5532x256 1 := cmpf .olt main_v4 main_v5
  let main_c_1 : IVec S_ 1 := constantI S_ 1 1#1
  let main_v7 : IVec S_ 1 := (fun x v => Host.reduce IntOp.andi x v reducesTo_S5532x256_S_d0_1 h_S_) main_v6 main_c_1
  let main_v8 : IVec S_ 1 := andi main_v3 main_v7
  let main_v9 : FVec F S5000x256 .f32 := Host.absf main_arg4
  let main_cst_2 : FVec F S_ .f32 := constant S_ .f32 0x7F800000#32
  let main_v10 : FVec F S5000x256 .f32 := broadcastInDim S5000x256 ![] bcast_S_S5000x256 main_cst_2
  let main_v11 : IVec S5000x256 1 := cmpf .olt main_v9 main_v10
  let main_c_3 : IVec S_ 1 := constantI S_ 1 1#1
  let main_v12 : IVec S_ 1 := (fun x v => Host.reduce IntOp.andi x v reducesTo_S5000x256_S_d0_1 h_S_) main_v11 main_c_3
  let main_v13 : IVec S_ 1 := andi main_v8 main_v12
  main_v13
-- ==== Kernel.lean ====
abbrev S4096x256 : Shape := ⟨2, ![4096, 256]⟩
abbrev S4096 : Shape := ⟨1, ![4096]⟩
abbrev S5532x256 : Shape := ⟨2, ![5532, 256]⟩
abbrev S5000x256 : Shape := ⟨2, ![5000, 256]⟩
abbrev S10532x256 : Shape := ⟨2, ![10532, 256]⟩
abbrev S4096x10532 : Shape := ⟨2, ![4096, 10532]⟩
abbrev S256x256 : Shape := ⟨2, ![256, 256]⟩
abbrev S256x10532 : Shape := ⟨2, ![256, 10532]⟩

abbrev nBuf : Space → Nat
  | .hbm => 8
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S4096, .i1⟩
  | .hbm, ⟨3, _⟩ => ⟨S5532x256, .f32⟩
  | .hbm, ⟨4, _⟩ => ⟨S5000x256, .f32⟩
  | .hbm, ⟨5, _⟩ => ⟨S10532x256, .f32⟩
  | .hbm, ⟨6, _⟩ => ⟨S10532x256, .bf16⟩
  | .hbm, ⟨7, _⟩ => ⟨S4096x10532, .f32⟩
  | .local _ .vmem, ⟨0, _⟩ => ⟨S256x256, .f32⟩
  | .local _ .vmem, ⟨1, _⟩ => ⟨S256x256, .f32⟩
  | .local _ .vmem, ⟨2, _⟩ => ⟨S10532x256, .bf16⟩
  | .local _ .vmem, ⟨3, _⟩ => ⟨S256x10532, .f32⟩
  | .local _ .vmem, ⟨4, _⟩ => ⟨S256x10532, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10532x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x10532 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S5532x256_S5000x256_S10532x256_d0 : Shape.Concatenates [S5532x256, S5000x256] S10532x256 0
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S10532x256_S10532x256_0_0 : ∀ a, (![0, 0] : Fin 2 → Nat) a + S10532x256.size a ≤ S10532x256.size a
  h_S10532x256 : 0 < S10532x256.numel
  shapeCasts_S10532x256_S10532x256 : S10532x256.ShapeCasts S10532x256
  inb_S256x10532_S256x10532_0_0 : ∀ a, (![0, 0] : Fin 2 → Nat) a + S256x10532.size a ≤ S256x10532.size a
  h_S256x10532 : 0 < S256x10532.numel
  dot_S256x256_S10532x256_S256x10532_1_1_0_0_n_n_wf : DotDims.WF S256x256 S10532x256 S256x10532 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10532x256.size a ≤ S10532x256.size a
  hwx0_1 : ∀ i : grid0.Coords, EltTy.bits .bf16 = 32 ∨ (Rect.block (s := S10532x256) S10532x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x10532.size a ≤ S4096x10532.size a
  hwx0_2 : ∀ i : grid0.Coords, EltTy.bits .f32 = 32 ∨ (Rect.block (s := S4096x10532) S256x10532.size (cc0_transform_2 i) (hinb0_2 i)).WholeWords (EltTy.packing .f32)

variable [Facts₀]

def dot_S256x256_S10532x256_S256x10532_1_1_0_0_n_n : DotDims S256x256 S10532x256 S256x10532 where
  lhsContracting := [1]
  rhsContracting := [1]
  lhsNonContracting := [0]
  rhsNonContracting := [0]
  lhsBatch := []
  rhsBatch := []
  wf := dot_S256x256_S10532x256_S256x10532_1_1_0_0_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10532x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x10532.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096 : Shape := ⟨1, ![4096]⟩
abbrev S5532x256 : Shape := ⟨2, ![5532, 256]⟩
abbrev S5000x256 : Shape := ⟨2, ![5000, 256]⟩
abbrev S256x5532 : Shape := ⟨2, ![256, 5532]⟩
abbrev S4096x5532 : Shape := ⟨2, ![4096, 5532]⟩
abbrev S256x5000 : Shape := ⟨2, ![256, 5000]⟩
abbrev S4096x5000 : Shape := ⟨2, ![4096, 5000]⟩
abbrev S4096x10532 : Shape := ⟨2, ![4096, 10532]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096, .i32⟩
  | .hbm, ⟨2, _⟩ => ⟨S4096, .i1⟩
  | .hbm, ⟨3, _⟩ => ⟨S5532x256, .f32⟩
  | .hbm, ⟨4, _⟩ => ⟨S5000x256, .f32⟩
  | .hbm, ⟨5, _⟩ => ⟨S256x5532, .f32⟩
  | .hbm, ⟨6, _⟩ => ⟨S4096x5532, .f32⟩
  | .hbm, ⟨7, _⟩ => ⟨S256x5000, .f32⟩
  | .hbm, ⟨8, _⟩ => ⟨S4096x5000, .f32⟩
  | .hbm, ⟨9, _⟩ => ⟨S4096x10532, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  transposes_S5532x256_S256x5532_1_0 : S5532x256.Transposes [1, 0] S256x5532
  transposes_S5000x256_S256x5000_1_0 : S5000x256.Transposes [1, 0] S256x5000
  concatenates_S4096x5532_S4096x5000_S4096x10532_d1 : Shape.Concatenates [S4096x5532, S4096x5000] S4096x10532 1
  dot_S4096x256_S256x5532_S4096x5532_1_0_0_1_n_n_wf : DotDims.WF S4096x256 S256x5532 S4096x5532 [1] [0] [0] [1] [] []
  dot_S4096x256_S256x5000_S4096x5000_1_0_0_1_n_n_wf : DotDims.WF S4096x256 S256x5000 S4096x5000 [1] [0] [0] [1] [] []

variable [Facts₀]

def dot_S4096x256_S256x5532_S4096x5532_1_0_0_1_n_n : DotDims S4096x256 S256x5532 S4096x5532 where
  lhsContracting := [1]
  rhsContracting := [0]
  lhsNonContracting := [0]
  rhsNonContracting := [1]
  lhsBatch := []
  rhsBatch := []
  wf := dot_S4096x256_S256x5532_S4096x5532_1_0_0_1_n_n_wf
def dot_S4096x256_S256x5000_S4096x5000_1_0_0_1_n_n : DotDims S4096x256 S256x5000 S4096x5000 where
  lhsContracting := [1]
  rhsContracting := [0]
  lhsNonContracting := [0]
  rhsNonContracting := [1]
  lhsBatch := []
  rhsBatch := []
  wf := dot_S4096x256_S256x5000_S4096x5000_1_0_0_1_n_n_wf

class Facts : Prop extends Facts₀ where

variable [Facts]
-- ==== Proof.Scores.lean ====
/-
  The similarity scores, as one function of the three float arrays.

  Row `b` of the features is compared with every row of a table of 10532 rows: the first 5532 are the rows of the
  lookup table, the remaining 5000 the rows of the queue. The score at `(b, j)` is the inner product over the 256
  feature coordinates of feature row `b` with table row `j`:

      scores x lut queue (b, j) = ∑ k, x (b, k) * stacked lut queue (j, k)

  where `stacked lut queue (j, k)` is `lut (j, k)` for `j < 5532` and `queue (j - 5532, k)` otherwise.

  Two facts about joining arrays are proved beside it, each read at an index:
  * laying the lookup table's rows above the queue's rows (a join along the row axis) IS `stacked`;
  * laying a 4096 × 5532 array to the left of a 4096 × 5000 array (a join along the column axis) reads the left
    array where the column is below 5532 and the right one, 5532 columns back, otherwise.
  Nothing here needs an entry to be finite: only the definition of a join and of a sum is used.
-/
import Idealize.ShloMosaic.PureOps.Ideal
import Idealize.ShloMosaic.Lib.ValueIdx
import Idealize.ShloMosaic.Lib.Pipeline.Value

noncomputable section

open Idealize.ShloMosaic Idealize.ShloMosaic.ValueIdx

namespace Cert.Scores

/-- The features: 4096 rows of 256 coordinates. -/
abbrev Feat : Shape := ⟨2, ![4096, 256]⟩
/-- The lookup table: 5532 rows. -/
abbrev Lut : Shape := ⟨2, ![5532, 256]⟩
/-- The queue: 5000 rows. -/
abbrev Queue : Shape := ⟨2, ![5000, 256]⟩
/-- The lookup table's rows above the queue's: 10532 rows. -/
abbrev Table : Shape := ⟨2, ![10532, 256]⟩
/-- The scores: one per feature row and table row. -/
abbrev Out : Shape := ⟨2, ![4096, 10532]⟩
/-- The scores against the lookup table alone, and against the queue alone. -/
abbrev OutLut : Shape := ⟨2, ![4096, 5532]⟩
abbrev OutQueue : Shape := ⟨2, ![4096, 5000]⟩

/-- Row `j` of the stacked table: the lookup table's row `j` below 5532, the queue's row `j - 5532` from there on. -/
def stacked (lut : Lut.Idx → EReal) (queue : Queue.Idx → EReal) : Table.Idx → EReal := fun r =>
  if h : (r 0).val < 5532 then lut (ix2 ⟨(r 0).val, h⟩ (r 1))
  else queue (ix2 ⟨(r 0).val - 5532, by have := idx2_lt0 r; omega⟩ (r 1))

/-- The score of feature row `j 0` against table row `j 1`: their inner product over the 256 coordinates. -/
def scores (x : Feat.Idx → EReal) (lut : Lut.Idx → EReal) (queue : Queue.Idx → EReal) : Out.Idx → EReal := fun j =>
  ∑ k : Fin 256, x (ix2 (j 0) k) * stacked lut queue (ix2 (j 1) k)

/-- A table row below 5532 is the lookup table's. -/
theorem stacked_lut (lut : Lut.Idx → EReal) (queue : Queue.Idx → EReal) (q : Fin 10532) (k : Fin 256) (h : q.val < 5532) :
    stacked lut queue (ix2 q k) = lut (ix2 ⟨q.val, h⟩ k) := by
  unfold stacked
  rw [dif_pos (show ((ix2 q k : Table.Idx) 0).val < 5532 from h)]

/-- A table row from 5532 on is the queue's, 5532 rows back. -/
theorem stacked_queue (lut : Lut.Idx → EReal) (queue : Queue.Idx → EReal) (q : Fin 10532) (k : Fin 256) (h : ¬ q.val < 5532) :
    stacked lut queue (ix2 q k) = queue (ix2 ⟨q.val - 5532, by have := q.isLt; omega⟩ k) := by
  unfold stacked
  rw [dif_neg (show ¬ ((ix2 q k : Table.Idx) 0).val < 5532 from h)]

/-- The lookup table's rows laid above the queue's rows is the stacked table. -/
theorem join_rows (lut : Lut.Idx → EReal) (queue : Queue.Idx → EReal) (h : Shape.Concatenates [Lut, Queue] Table 0) :
    concatenate Table 0 [⟨Lut, lut⟩, ⟨Queue, queue⟩] h = stacked lut queue := by
  funext r
  unfold stacked
  by_cases hr : (r 0).val < 5532
  · rw [dif_pos hr]
    exact concatenate_pair_apply_left 0 lut queue h r rfl _ (fun b => match b with
      | ⟨0, _⟩ => rfl
      | ⟨1, _⟩ => rfl)
  · rw [dif_neg hr]
    exact concatenate_pair_apply_right 0 lut queue h r rfl rfl _ (fun b hb => match b, hb with
      | ⟨0, _⟩, hb => absurd rfl hb
      | ⟨1, _⟩, _ => rfl) (by show (r 0).val - 5532 + 5532 = (r 0).val; omega)

/-- Two score arrays laid side by side, read at an index: the left one where the column is below 5532, the right one,
    5532 columns back, otherwise. -/
theorem join_cols_apply (a : OutLut.Idx → EReal) (b : OutQueue.Idx → EReal) (h : Shape.Concatenates [OutLut, OutQueue] Out 1)
    (j : Out.Idx) :
    concatenate Out 1 [⟨OutLut, a⟩, ⟨OutQueue, b⟩] h j
      = if hj : (j 1).val < 5532 then a (ix2 (j 0) ⟨(j 1).val, hj⟩)
        else b (ix2 (j 0) ⟨(j 1).val - 5532, by have := idx2_lt1 j; omega⟩) := by
  by_cases hj : (j 1).val < 5532
  · rw [dif_pos hj]
    exact concatenate_pair_apply_left 1 a b h j rfl _ (fun c => match c with
      | ⟨0, _⟩ => rfl
      | ⟨1, _⟩ => rfl)
  · rw [dif_neg hj]
    exact concatenate_pair_apply_right 1 a b h j rfl rfl _ (fun c hc => match c, hc with
      | ⟨0, _⟩, _ => rfl
      | ⟨1, _⟩, hc => absurd rfl hc) (by show (j 1).val - 5532 + 5532 = (j 1).val; omega)

end Cert.Scores

end
-- ==== Proof.RefScores.lean ====
/-
  The reference's result is the score matrix.

  The reference transposes the lookup table and the queue, multiplies the features by each (two products contracting the
  256 feature coordinates) and lays the two products side by side. Read at an index `(b, j)`: for `j < 5532` the left
  product, `∑ k, x (b, k) * lut (j, k)` once the transpose is read back; otherwise the right one,
  `∑ k, x (b, k) * queue (j - 5532, k)`. Either way it is the inner product of feature row `b` with row `j` of the
  stacked table.
-/
import proofs.«100552_j50637664420263_2_alg».proof.Proof.Gen.ReferenceIdeal.Read
import proofs.«100552_j50637664420263_2_alg».proof.Proof.Scores

noncomputable section

open Idealize.ShloMosaic Idealize.ShloMosaic.ValueIdx

namespace Cert.ReferenceIdeal.RefScores

open Cert.ReferenceIdeal Cert.ReferenceIdeal.Read Cert.Scores

/-- The left factor of the product against the lookup table, at output `(p, q)` and coordinate `k`: feature `(p, k)`. -/
theorem feat_idx_lut (p : Fin 4096) (q : Fin 5532) (k : Fin 256) : lidx_main_v1 (ix2 p q) k = ix2 p k :=
  funext fun a => match a with
    | ⟨0, _⟩ => rfl
    | ⟨1, _⟩ => rfl

/-- The right factor, read back through the transpose: lookup-table entry `(q, k)`. -/
theorem lut_idx (p : Fin 4096) (q : Fin 5532) (k : Fin 256) : idx_main_v0 (ridx_main_v1 (ix2 p q) k) = ix2 q k :=
  funext fun a => match a with
    | ⟨0, _⟩ => rfl
    | ⟨1, _⟩ => rfl

/-- The same two for the product against the queue. -/
theorem feat_idx_queue (p : Fin 4096) (q : Fin 5000) (k : Fin 256) : lidx_main_v3 (ix2 p q) k = ix2 p k :=
  funext fun a => match a with
    | ⟨0, _⟩ => rfl
    | ⟨1, _⟩ => rfl

theorem queue_idx (p : Fin 4096) (q : Fin 5000) (k : Fin 256) : idx_main_v2 (ridx_main_v3 (ix2 p q) k) = ix2 q k :=
  funext fun a => match a with
    | ⟨0, _⟩ => rfl
    | ⟨1, _⟩ => rfl

/-- The product against the lookup table at `(p, q)`: feature row `p` against lookup-table row `q`. -/
theorem lut_product (x0 : (⟨S4096x256, .f32⟩ : BufTy).Contents (Elt Ideal)) (x3 : (⟨S5532x256, .f32⟩ : BufTy).Contents (Elt Ideal))
    (p : Fin 4096) (q : Fin 5532) :
    val_main_v1 (F := Ideal) x0 x3 (ix2 p q) = ∑ k : Fin 256, x0 (ix2 p k) * x3 (ix2 q k) := by
  rw [val_main_v1_apply]
  refine Finset.sum_congr rfl fun k _ => ?_
  rw [val_main_v0_apply, feat_idx_lut, lut_idx]

/-- The product against the queue at `(p, q)`: feature row `p` against queue row `q`. -/
theorem queue_product (x0 : (⟨S4096x256, .f32⟩ : BufTy).Contents (Elt Ideal)) (x4 : (⟨S5000x256, .f32⟩ : BufTy).Contents (Elt Ideal))
    (p : Fin 4096) (q : Fin 5000) :
    val_main_v3 (F := Ideal) x0 x4 (ix2 p q) = ∑ k : Fin 256, x0 (ix2 p k) * x4 (ix2 q k) := by
  rw [val_main_v3_apply]
  refine Finset.sum_congr rfl fun k _ => ?_
  rw [val_main_v2_apply, feat_idx_queue, queue_idx]

/-- The reference's last stage, as a function of the features, the lookup table and the queue, is `scores`. -/
theorem reference_eq (x0 : (⟨S4096x256, .f32⟩ : BufTy).Contents (Elt Ideal)) (x3 : (⟨S5532x256, .f32⟩ : BufTy).Contents (Elt Ideal))
    (x4 : (⟨S5000x256, .f32⟩ : BufTy).Contents (Elt Ideal)) :
    val_main_v4 (F := Ideal) x0 x3 x4 = scores x0 x3 x4 := by
  funext j
  unfold val_main_v4
  refine (join_cols_apply _ _ _ j).trans ?_
  unfold scores
  by_cases hj : (j 1).val < 5532
  · rw [dif_pos hj]
    refine (lut_product x0 x3 (j 0) ⟨(j 1).val, hj⟩).trans ?_
    refine Finset.sum_congr rfl fun k _ => ?_
    exact congrArg (x0 (ix2 (j 0) k) * ·) (stacked_lut x3 x4 (j 1) k hj).symm
  · rw [dif_neg hj]
    refine (queue_product x0 x4 (j 0) ⟨(j 1).val - 5532, by have := idx2_lt1 j; omega⟩).trans ?_
    refine Finset.sum_congr rfl fun k _ => ?_
    exact congrArg (x0 (ix2 (j 0) k) * ·) (stacked_queue x3 x4 (j 1) k hj).symm

end Cert.ReferenceIdeal.RefScores

end
-- ==== Proof.Payload.lean ====
/-
  What the kernel body computes from its two loaded blocks, read at an index.

  The body loads a 256 × 256 block of features and the whole 10532 × 256 table, narrows the features' format (no
  change of value on the extended reals), and multiplies the block by the table, contracting the second axis of both,
  into a zero accumulator. At `(p, q)` the result is `∑ k, block (p, k) * table (q, k)`: the zero accumulator adds
  nothing, the left factor's index is the output's row with the contracted coordinate, the right factor's the output's
  column with the contracted coordinate.
-/
import proofs.«100552_j50637664420263_2_alg».proof.Proof.Gen.KernelIdeal.Skeleton
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.Body

open Cert.KernelIdeal Cert.KernelIdeal.Gen

/-- The left operand's row is the output's row. -/
theorem lhs_row (i : S256x10532.Idx) (q : dot_S256x256_S10532x256_S256x10532_1_1_0_0_n_n.contr.Idx) :
    (dot_S256x256_S10532x256_S256x10532_1_1_0_0_n_n.lhsIdx i q 0).val = (i 0).val := by
  unfold DotDims.lhsIdx
  rw [dif_neg (show ¬(0 : Fin S256x256.rank) ∈ dot_S256x256_S10532x256_S256x10532_1_1_0_0_n_n.lhsBatch by decide), dif_pos (show (0 : Fin S256x256.rank) ∈ dot_S256x256_S10532x256_S256x10532_1_1_0_0_n_n.lhsNonContracting by decide)]
  rfl

/-- The left operand's column is the contracted coordinate. -/
theorem lhs_col (i : S256x10532.Idx) (q : dot_S256x256_S10532x256_S256x10532_1_1_0_0_n_n.contr.Idx) :
    (dot_S256x256_S10532x256_S256x10532_1_1_0_0_n_n.lhsIdx i q 1).val = (q ⟨0, by decide⟩).val :=
  dot_S256x256_S10532x256_S256x10532_1_1_0_0_n_n.lhsIdx_val_of_single rfl i q

/-- The right operand's row is the output's column. -/
theorem rhs_row (i : S256x10532.Idx) (q : dot_S256x256_S10532x256_S256x10532_1_1_0_0_n_n.contr.Idx) :
    (dot_S256x256_S10532x256_S256x10532_1_1_0_0_n_n.rhsIdx i q 0).val = (i 1).val := by
  unfold DotDims.rhsIdx
  rw [dif_neg (show ¬(0 : Fin S10532x256.rank) ∈ dot_S256x256_S10532x256_S256x10532_1_1_0_0_n_n.rhsBatch by decide), dif_pos (show (0 : Fin S10532x256.rank) ∈ dot_S256x256_S10532x256_S256x10532_1_1_0_0_n_n.rhsNonContracting by decide)]
  rfl

/-- The right operand's column is the contracted coordinate. -/
theorem rhs_col (i : S256x10532.Idx) (q : dot_S256x256_S10532x256_S256x10532_1_1_0_0_n_n.contr.Idx) :
    (dot_S256x256_S10532x256_S256x10532_1_1_0_0_n_n.rhsIdx i q 1).val = (q ⟨0, by decide⟩).val :=
  dot_S256x256_S10532x256_S256x10532_1_1_0_0_n_n.rhsIdx_val_of_single rfl i q

/-- The body's stored value at `(p, q)`: the inner product of row `p` of the feature block with row `q` of the table. -/
theorem block_scores (x0 : Vec Ideal S256x256 .f32) (x1 : Vec Ideal S10532x256 .bf16) (p : Fin 256) (q : Fin 10532) :
    k0_pay1 (F := Ideal) x0 x1 (ix2 p q) = ∑ k : Fin 256, x0 (ix2 p k) * x1 (ix2 q k) := by
  unfold k0_pay1
  simp only [matmul]
  rw [Ideal.matmul_constant_zero_apply, ← Equiv.sum_comp (contrEquiv1 dot_S256x256_S10532x256_S256x10532_1_1_0_0_n_n 256 rfl rfl).symm]
  refine Finset.sum_congr rfl fun k _ => ?_
  have hk := contrEquiv1_symm_val dot_S256x256_S10532x256_S256x10532_1_1_0_0_n_n 256 rfl rfl k
  have el : dot_S256x256_S10532x256_S256x10532_1_1_0_0_n_n.lhsIdx (ix2 p q) ((contrEquiv1 dot_S256x256_S10532x256_S256x10532_1_1_0_0_n_n 256 rfl rfl).symm k) = ix2 p k := funext fun a => Fin.ext (by
    match a with
    | ⟨0, _⟩ => exact lhs_row _ _
    | ⟨1, _⟩ => exact (lhs_col _ _).trans hk)
  have er : dot_S256x256_S10532x256_S256x10532_1_1_0_0_n_n.rhsIdx (ix2 p q) ((contrEquiv1 dot_S256x256_S10532x256_S256x10532_1_1_0_0_n_n 256 rfl rfl).symm k) = ix2 q k := funext fun a => Fin.ext (by
    match a with
    | ⟨0, _⟩ => exact rhs_row _ _
    | ⟨1, _⟩ => exact (rhs_col _ _).trans hk)
  rw [el, er, shapeCast_self]
  rfl

end Cert.KernelIdeal.Body

end
-- ==== Proof.KernelScores.lean ====
/-
  The kernel's result array is the score matrix.

  The grid has 16 points. Point `t` is given rows `256 t … 256 t + 255` of the features and the whole table — which the
  host glue has built by laying the lookup table's rows above the queue's (and narrowing the format, no change of value
  on the extended reals): the stacked table — and writes rows `256 t … 256 t + 255` of the result, all 10532 columns.
  What it writes at local `(p, q)` is the inner product of feature row `256 t + p` with table row `q`, which is the
  score matrix at `(256 t + p, q)`. Row `r` of the result lies in the block of point `r / 256`, so the 16 blocks cover
  the array and the array ends holding the score matrix everywhere.
-/
import proofs.«100552_j50637664420263_2_alg».proof.Proof.Gen.KernelIdeal.Value
import proofs.«100552_j50637664420263_2_alg».proof.Proof.Payload
import proofs.«100552_j50637664420263_2_alg».proof.Proof.Scores
import Idealize.ShloMosaic.Lib.StableHlo.Run
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value Cert.KernelIdeal.Body Cert.Scores

variable (m : (ℓ : Loc nD τ sig) → Buf (Elt Ideal) ℓ) (ρ : Dev nD → PrngReg)

theorem origin : (![0, 0] : Fin 2 → Nat) = fun _ => 0 := funext fun a => by fin_cases a <;> rfl

/-- The block indices at grid point `t`: the features' and the result's blocks are row block `t`, the table's is the
    whole table (decided over the 16 points). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The table as the grid finds it: the host glue's join of the lookup table's and the queue's rows, that is the
    stacked table. -/
theorem table_eq (c : Dev nD) :
    (V m c main_v1 : S10532x256.Idx → EReal) = stacked (m ((c : Thread nD τ).loc main_arg3) : S5532x256.Idx → EReal) (m ((c : Thread nD τ).loc main_arg4) : S5000x256.Idx → EReal) := by
  have e : (V m c main_v1 : S10532x256.Idx → EReal)
      = concatenate S10532x256 0 [⟨S5532x256, (m ((c : Thread nD τ).loc main_arg3) : S5532x256.Idx → EReal)⟩, ⟨S5000x256, (m ((c : Thread nD τ).loc main_arg4) : S5000x256.Idx → EReal)⟩]
          Facts₀.concatenates_S5532x256_S5000x256_S10532x256_d0 := by
    dsimp only [Gen.V, Gen.hostOps0]; after_results; rfl
  rw [e]
  exact join_rows _ _ _

/-- Entry `(p, k)` of the feature block at point `t` is feature `(256 t + p, k)`. -/
theorem feat_block (c : Dev nD) (t : Fin cfg0.N) (p k : Fin 256) (i : S4096x256.Idx)
    (hi0 : (i 0).val = t.val * 256 + p.val) (hi1 : (i 1).val = k.val) :
    (iblk m c 0 t : Vec Ideal S256x256 .f32) (ix2 p k) = (m ((c : Thread nD τ).loc main_arg0) : S4096x256.Idx → EReal) i := by
  obtain ⟨e0, e1, -⟩ := index_facts t
  unfold iblk
  rw [View.read_apply]
  show V m c main_arg0 _ = _
  rw [V_main_arg0]
  congr 1
  funext a
  apply Fin.ext
  match a with
  | ⟨0, _⟩ => show win0_0.index t (0 : Fin 2) * 256 + 1 * p.val = (i 0).val; rw [e0, hi0]; omega
  | ⟨1, _⟩ => show win0_0.index t (1 : Fin 2) * 256 + 1 * k.val = (i 1).val; rw [e1, hi1]; omega

/-- The table block at every point is the whole stacked table. -/
theorem table_block (c : Dev nD) (t : Fin cfg0.N) (q : Fin 10532) (k : Fin 256) :
    (iblk m c 1 t : Vec Ideal S10532x256 .bf16) (ix2 q k) = stacked (m ((c : Thread nD τ).loc main_arg3) : S5532x256.Idx → EReal) (m ((c : Thread nD τ).loc main_arg4) : S5000x256.Idx → EReal) (ix2 q k) := by
  obtain ⟨-, -, e2, e3, -⟩ := index_facts t
  unfold iblk
  rw [View.read_apply]
  show V m c main_v1 _ = _
  rw [table_eq]
  congr 1
  funext a
  apply Fin.ext
  match a with
  | ⟨0, _⟩ => show win0_1.index t (0 : Fin 2) * 10532 + 1 * q.val = q.val; rw [e2]; omega
  | ⟨1, _⟩ => show win0_1.index t (1 : Fin 2) * 256 + 1 * k.val = k.val; rw [e3]; omega

/-- One point's work, over plain arrays: if the feature block holds rows `256 n + p` of `x` and the table block is the
    stacked table, the body's value at a local index `y` is the score at `(256 n + y 0, y 1)`. -/
theorem point_scores (x : Feat.Idx → EReal) (lut : Lut.Idx → EReal) (queue : Queue.Idx → EReal)
    (x0 : Vec Ideal S256x256 .f32) (x1 : Vec Ideal S10532x256 .bf16) (n : Nat)
    (hx0 : ∀ (p k : Fin 256) (i : Feat.Idx), (i 0).val = n * 256 + p.val → (i 1).val = k.val → x0 (ix2 p k) = x i)
    (hx1 : ∀ (q : Fin 10532) (k : Fin 256), x1 (ix2 q k) = stacked lut queue (ix2 q k))
    (y : S256x10532.Idx) (i : Out.Idx) (hi0 : (i 0).val = n * 256 + (y 0).val) (hi1 : (i 1).val = (y 1).val) :
    k0_pay1 (F := Ideal) x0 x1 y = scores x lut queue i := by
  obtain ⟨p, q, rfl⟩ : ∃ (p : Fin 256) (q : Fin 10532), y = ix2 p q := ⟨y 0, y 1, eq_ix2 y⟩
  rw [block_scores]
  unfold scores
  refine Finset.sum_congr rfl fun k _ => ?_
  rw [hx0 p k (ix2 (i 0) k) hi0 rfl, hx1 q k]
  exact congrArg (fun r : Fin 10532 => x (ix2 (i 0) k) * stacked lut queue (ix2 r k)) (Fin.ext hi1).symm

/-- What point `t` writes back is block `t` of the score matrix. -/
theorem flushed_scores (c : Dev nD) (t : Fin cfg0.N) :
    (dats m 0 c).flushed 2 t = ((cfg0.win 2).blk t).view.read (Elt Ideal) (scores (m ((c : Thread nD τ).loc main_arg0) : S4096x256.Idx → EReal) (m ((c : Thread nD τ).loc main_arg3) : S5532x256.Idx → EReal) (m ((c : Thread nD τ).loc main_arg4) : S5000x256.Idx → EReal)) := by
  rw [Value.flushed2]
  unfold out0_2
  rw [View.canon_unit_zero origin]
  simp only [View.ld_unit_zero (S := S256x256) origin, View.ld_unit_zero (S := S10532x256) origin]
  obtain ⟨-, -, -, -, e4, e5⟩ := index_facts t
  funext y
  show k0_pay1 (iblk m c 0 t) (iblk m c 1 t) y = scores _ _ _ (((cfg0.win 2).blk t).view.emb y)
  refine point_scores (m ((c : Thread nD τ).loc main_arg0) : S4096x256.Idx → EReal) (m ((c : Thread nD τ).loc main_arg3) : S5532x256.Idx → EReal) (m ((c : Thread nD τ).loc main_arg4) : S5000x256.Idx → EReal) (iblk m c 0 t) (iblk m c 1 t) t.val
    (fun p k i h0 h1 => feat_block m c t p k i h0 h1) (fun q k => table_block m c t q k) y _ ?_ ?_
  · show win0_2.index t (0 : Fin 2) * 256 + 1 * (y 0).val = t.val * 256 + (y 0).val
    rw [e4]; omega
  · show win0_2.index t (1 : Fin 2) * 10532 + 1 * (y 1).val = (y 1).val
    rw [e5]; omega

/-- An index of the result is in point `t`'s block iff each coordinate is in the block's range on its axis. -/
theorem mem_block (t : Fin cfg0.N) (i : S4096x10532.Idx) :
    i ∈ ((cfg0.win 2).blk t).view.set ↔ ∀ a : Fin 2, win0_2.index t a * S256x10532.size a ≤ (i a).val ∧ (i a).val < win0_2.index t a * S256x10532.size a + S256x10532.size a := by
  show i ∈ ((View.whole main_v2).slice (win0_2.rect t)).set ↔ _
  rw [View.set_slice_whole, Rect.mem_set_unit]
  exact Iff.rfl

/-- Every index of the result is written: row `r` by point `r / 256`. -/
theorem covered (i : S4096x10532.Idx) :
    ∃ t : Fin cfg0.N, (cfg0.win 2).flush t = true ∧ i ∈ ((cfg0.win 2).blk t).view.set := by
  have h0 : (i 0).val < 4096 := idx2_lt0 i
  have h1 : (i 1).val < 10532 := idx2_lt1 i
  obtain ⟨t, ht⟩ : ∃ t : Fin cfg0.N, t.val = (i 0).val / 256 :=
    ⟨⟨(i 0).val / 256, by show _ < grid0.N; rw [N_0]; omega⟩, rfl⟩
  obtain ⟨-, -, -, -, e4, e5⟩ := index_facts t
  refine ⟨t, flush0_2 t, ?_⟩
  rw [mem_block]
  intro a
  match a with
  | ⟨0, _⟩ =>
    show win0_2.index t (0 : Fin 2) * 256 ≤ (i 0).val ∧ (i 0).val < win0_2.index t (0 : Fin 2) * 256 + 256
    rw [e4]; omega
  | ⟨1, _⟩ =>
    show win0_2.index t (1 : Fin 2) * 10532 ≤ (i 1).val ∧ (i 1).val < win0_2.index t (1 : Fin 2) * 10532 + 10532
    rw [e5]; omega

/-- The result array after the run is the score matrix of the argument arrays. -/
theorem final_scores (c : Dev nD) :
    (dats m 0 c).arrAt 2 cfg0.N = scores (m ((c : Thread nD τ).loc main_arg0) : S4096x256.Idx → EReal) (m ((c : Thread nD τ).loc main_arg3) : S5532x256.Idx → EReal) (m ((c : Thread nD τ).loc main_arg4) : S5000x256.Idx → EReal) :=
  (dats m 0 c).arrAt_eq_of_cover 2 _ (fun t _ => flushed_scores m c t) covered

/-- The kernel's run, read: the result at the score matrix of the arguments, the arguments unchanged. -/
theorem run : θ_run defs (onTc (τ := τ) (main (F := Ideal))) ⟨m, fun _ => 0, ρ⟩ fun r => ∀ c : Dev nD,
      r.2.mem ((c : Thread nD τ).loc main_v2) = scores (m ((c : Thread nD τ).loc main_arg0) : S4096x256.Idx → EReal) (m ((c : Thread nD τ).loc main_arg3) : S5532x256.Idx → EReal) (m ((c : Thread nD τ).loc main_arg4) : S5000x256.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_scores m c), (h c).2⟩) (Value.run_blocks m ρ)

end Cert.KernelIdeal.Whole

end
-- ==== Proof.lean ====
/-
  The kernel's similarity scores equal the reference's, entry by entry, on the extended reals.

  Both programs compute, for feature row `b` and table row `j` (the lookup table's 5532 rows followed by the queue's
  5000), the inner product `∑ k, x (b, k) * table (j, k)` over the 256 feature coordinates (`Cert.Scores.scores`).
  * The kernel stacks the two tables first and multiplies 256 feature rows at a time by the whole stacked table; its
    16 row blocks tile the 4096 × 10532 result (`Cert.KernelIdeal.Whole.run`).
  * The reference multiplies the features by each table separately and lays the two products side by side; a column
    below 5532 reads the first product, a later one the second, 5532 columns back
    (`Cert.ReferenceIdeal.RefScores.reference_eq`).
  The two agree by the definition of a join and of a sum alone: the terms of each sum are the same products in the same
  order, so no arithmetic law of the extended reals, and no finiteness of the inputs, is used. The narrowing of the
  kernel's operands' format does not change a value on the extended reals, and the product's zero accumulator adds
  nothing. The idealized kernel is the kernel's own text read on the extended reals (no rewrite was applied), so that
  conjunct is trivial; the three programs' termination and unchanged arguments are the generated frames, the
  reference's being its generated run with the result dropped.
-/
import proofs.«100552_j50637664420263_2_alg».proof.Defs
import proofs.«100552_j50637664420263_2_alg».proof.Proof.Gen.Kernel
import proofs.«100552_j50637664420263_2_alg».proof.Proof.Gen.Kernel.Skeleton
import proofs.«100552_j50637664420263_2_alg».proof.Proof.Gen.Kernel.Launch
import proofs.«100552_j50637664420263_2_alg».proof.Proof.Gen.Kernel.Points
import proofs.«100552_j50637664420263_2_alg».proof.Proof.Gen.Kernel.Frame
import proofs.«100552_j50637664420263_2_alg».proof.Proof.Gen.KernelIdeal
import proofs.«100552_j50637664420263_2_alg».proof.Proof.Gen.KernelIdeal.Skeleton
import proofs.«100552_j50637664420263_2_alg».proof.Proof.Gen.KernelIdeal.Launch
import proofs.«100552_j50637664420263_2_alg».proof.Proof.Gen.KernelIdeal.Points
import proofs.«100552_j50637664420263_2_alg».proof.Proof.Gen.KernelIdeal.Frame
import proofs.«100552_j50637664420263_2_alg».proof.Proof.Gen.ReferenceIdeal
import proofs.«100552_j50637664420263_2_alg».proof.Proof.Gen.KernelIdeal.Value
import proofs.«100552_j50637664420263_2_alg».proof.Proof.Gen.ReferenceIdeal.Run
import proofs.«100552_j50637664420263_2_alg».proof.Proof.Gen.ReferenceIdeal.Read
import proofs.«100552_j50637664420263_2_alg».proof.Proof.Gen.Pre_finite_inputs
import Idealize.ShloMosaic.Adequacy
import Idealize.ShloMosaic.Init

import proofs.«100552_j50637664420263_2_alg».proof.Proof.Scores
import proofs.«100552_j50637664420263_2_alg».proof.Proof.RefScores
import proofs.«100552_j50637664420263_2_alg».proof.Proof.KernelScores

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals: nothing to restate. -/
theorem preserves : Cert.preserves_Kernel_KernelIdeal := trivial

/-- From memories that agree on the arguments, the kernel's result array ends at the score matrix of its arguments
    (`Whole.run`) and the reference's at its last stage of its own (its generated run), which is the score matrix
    too (`reference_eq`); the arguments agree, so the two results are one array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefScores.reference_eq,
    (hagree c).1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
